-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S512x512 : Shape := ⟨2, ![512, 512]⟩
abbrev S512 : Shape := ⟨1, ![512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x512 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x4096x512 .f32) (main_arg1 : FVec F S4x4096x512 .f32) (main_arg2 : FVec F S512x512 .f32) (main_arg3 : FVec F S512 .f32) (main_arg4 : FVec F S512x512 .f32) (main_arg5 : FVec F S512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x4096x512 : Shape := ⟨3, ![4, 4096, 512]⟩
abbrev S512x512 : Shape := ⟨2, ![512, 512]⟩
abbrev S512 : Shape := ⟨1, ![512]⟩
abbrev S16384x512 : Shape := ⟨2, ![16384, 512]⟩
abbrev S1x512 : Shape := ⟨2, ![1, 512]⟩
abbrev S1024x512 : Shape := ⟨2, ![1024, 512]⟩

abbrev nBuf : Space → Nat
  | .hbm => 16
  | .vmem => 11
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S16384x512, .f32⟩
  | .hbm, ⟨7, _⟩ => ⟨S16384x512, .f32⟩
  | .hbm, ⟨8, _⟩ => ⟨S512x512, .bf16⟩
  | .hbm, ⟨9, _⟩ => ⟨S512x512, .f32⟩
  | .hbm, ⟨10, _⟩ => ⟨S512x512, .bf16⟩
  | .hbm, ⟨11, _⟩ => ⟨S512x512, .bf16⟩
  | .hbm, ⟨12, _⟩ => ⟨S1x512, .f32⟩
  | .hbm, ⟨13, _⟩ => ⟨S1x512, .f32⟩
  | .hbm, ⟨14, _⟩ => ⟨S16384x512, .f32⟩
  | .hbm, ⟨15, _⟩ => ⟨S4x4096x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x512, .f32⟩
  | .local _ .vmem, ⟨10, _⟩ => ⟨S1024x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x4096x512_S16384x512 : S4x4096x512.ShapeCasts S16384x512
  bitsLt_bf16_f32 : FTy.bits .bf16 < FTy.bits .f32
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S1024x512 : S1x512.Broadcasts S1024x512
  shapeCasts_S16384x512_S4x4096x512 : S16384x512.ShapeCasts S4x4096x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x4096x512 : Shape := ⟨3, ![4, 4096, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S4x4096x512, .f32⟩
  | .hbm, ⟨7, _⟩ => ⟨S1x1x512, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S4x4096x512, .f32⟩
  | .hbm, ⟨12, _⟩ => ⟨S4x4096x512, .f32⟩
  | .hbm, ⟨13, _⟩ => ⟨S512x512, .f32⟩
  | .hbm, ⟨14, _⟩ => ⟨S4x4096x512, .f32⟩
  | .hbm, ⟨15, _⟩ => ⟨S_, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x512, .f32⟩
  | .hbm, ⟨20, _⟩ => ⟨S1x1x512, .f32⟩
  | .hbm, ⟨21, _⟩ => ⟨S4x4096x512, .f32⟩
  | .hbm, ⟨22, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x4096x512_0_1_2 : S1x1x512.BroadcastsInDim S4x4096x512 (![0, 1, 2] : Fin 3 → Fin S4x4096x512.rank)
  bcast_S_S4x4096x512 : S_.BroadcastsInDim S4x4096x512 (![] : Fin 0 → Fin S4x4096x512.rank)
  dot_S4x4096x512_S512x512_S4x4096x512_2_1_01_0_n_n_wf : DotDims.WF S4x4096x512 S512x512 S4x4096x512 [2] [1] [0, 1] [0] [] []

variable [Facts₀]

def dot_S4x4096x512_S512x512_S4x4096x512_2_1_01_0_n_n : DotDims S4x4096x512 S512x512 S4x4096x512 where
  lhsContracting := [2]
  rhsContracting := [1]
  lhsNonContracting := [0, 1]
  rhsNonContracting := [0]
  lhsBatch := []
  rhsBatch := []
  wf := dot_S4x4096x512_S512x512_S4x4096x512_2_1_01_0_n_n_wf

class Facts : Prop extends Facts₀ where

variable [Facts]
-- ==== Proof.Spec.lean ====
/-
  The modulated linear layer, as one function of its six arrays.

  For a token (b, t) and an input feature i the scale is
      s(b,t,i) = Σ_k modulation(b,t,k) · mod_w(i,k) + mod_b(i),
  and for an output feature o the result is
      out(b,t,o) = (Σ_i (x(b,t,i) · s(b,t,i)) · weight(o,i))
                     · rsqrt( Σ_i (s(b,t,i) · s(b,t,i)) · (weight(o,i) · weight(o,i)) + ε ) + bias(o),
  every operation the extended reals' own, ε the one 32-bit literal both programs carry (it is never evaluated).
  The same function over the 16384 = 4 · 4096 flattened tokens, row r standing for token (r / 4096, r % 4096), is
  what a [16384, 512] array holds when it is the [4, 4096, 512] result re-laid row-major.
-/
import Idealize.ShloMosaic.PureOps.Ideal
import Idealize.ShloMosaic.Lib.ValueIdx
import Idealize.ShloMosaic.Lib.Pipeline.Value

noncomputable section

open scoped BigOperators

namespace Cert.ModLinear

open Idealize.ShloMosaic Idealize.ShloMosaic.ValueIdx

abbrev Tok3 : Shape := ⟨3, ![4, 4096, 512]⟩
abbrev Tok2 : Shape := ⟨2, ![16384, 512]⟩
abbrev Mat : Shape := ⟨2, ![512, 512]⟩
abbrev Row : Shape := ⟨1, ![512]⟩

/-- The per-token scale of input feature i. -/
def scale (md : FVec Ideal Tok3 .f32) (mw : FVec Ideal Mat .f32) (mb : FVec Ideal Row .f32)
    (b : Fin 4) (t : Fin 4096) (i : Fin 512) : EReal :=
  (∑ k : Fin 512, md (ix3 b t k) * mw (ix2 i k)) + mb (ix1 i)

/-- The layer's result for token (b, t) and output feature o. -/
def out (x md : FVec Ideal Tok3 .f32) (w : FVec Ideal Mat .f32) (bias : FVec Ideal Row .f32)
    (mw : FVec Ideal Mat .f32) (mb : FVec Ideal Row .f32) (b : Fin 4) (t : Fin 4096) (o : Fin 512) : EReal :=
  (∑ i : Fin 512, (x (ix3 b t i) * scale md mw mb b t i) * w (ix2 o i))
    * Ideal.rsqrt ((∑ i : Fin 512, (scale md mw mb b t i * scale md mw mb b t i) * (w (ix2 o i) * w (ix2 o i)))
        + Ideal.ofBits .f32 0x322BCC77#32)
    + bias (ix1 o)

/-- The result array, [4, 4096, 512]. -/
def G (x md : FVec Ideal Tok3 .f32) (w : FVec Ideal Mat .f32) (bias : FVec Ideal Row .f32)
    (mw : FVec Ideal Mat .f32) (mb : FVec Ideal Row .f32) : FVec Ideal Tok3 .f32 :=
  fun j => out x md w bias mw mb (j 0) (j 1) (j 2)

/-- The batch of flattened token r. -/
abbrev rowB (r : Fin 16384) : Fin 4 := ⟨r.val / 4096, by have := r.isLt; omega⟩
/-- Its position in the sequence. -/
abbrev rowT (r : Fin 16384) : Fin 4096 := ⟨r.val % 4096, Nat.mod_lt _ (by decide)⟩

/-- The result over flattened tokens, [16384, 512]. -/
def Gflat (x md : FVec Ideal Tok3 .f32) (w : FVec Ideal Mat .f32) (bias : FVec Ideal Row .f32)
    (mw : FVec Ideal Mat .f32) (mb : FVec Ideal Row .f32) : FVec Ideal Tok2 .f32 :=
  fun j => out x md w bias mw mb (rowB (j 0)) (rowT (j 0)) (j 1)

/-- A [4, 4096, 512] array re-laid as [16384, 512], read at row r: token (r / 4096, r % 4096). -/
theorem flatten_apply {α : Type} (a : Tok3.Idx → α) (h : Tok3.ShapeCasts Tok2) (r : Fin 16384) (i : Fin 512) :
    shapeCast Tok2 a h (ix2 r i) = a (ix3 (rowB r) (rowT r) i) :=
  shapeCast_apply a h (ix2 r i) (ix3 (rowB r) (rowT r) i) (by
    rw [Shape.rowMajor_val_three, Shape.rowMajor_val_two]
    show (r.val / 4096 * 4096 + r.val % 4096) * 512 + i.val = r.val * 512 + i.val
    have := Nat.div_add_mod r.val 4096
    omega)

/-- The flat result re-laid as [4, 4096, 512] is the result array. -/
theorem unflatten_Gflat (x md : FVec Ideal Tok3 .f32) (w : FVec Ideal Mat .f32) (bias : FVec Ideal Row .f32)
    (mw : FVec Ideal Mat .f32) (mb : FVec Ideal Row .f32) (h : Tok2.ShapeCasts Tok3) :
    shapeCast Tok3 (Gflat x md w bias mw mb) h = G x md w bias mw mb := by
  funext j
  have hb : (j 0).val < 4 := (j 0).isLt
  have ht : (j 1).val < 4096 := (j 1).isLt
  have ho : (j 2).val < 512 := (j 2).isLt
  have hr : (j 0).val * 4096 + (j 1).val < 16384 := by omega
  rw [shapeCast_apply (Gflat x md w bias mw mb) h j (ix2 (⟨(j 0).val * 4096 + (j 1).val, hr⟩ : Fin 16384) (⟨(j 2).val, ho⟩ : Fin 512)) (by
    rw [Shape.rowMajor_val_three, Shape.rowMajor_val_two]; rfl)]
  unfold Gflat G
  have eb : rowB (⟨(j 0).val * 4096 + (j 1).val, hr⟩ : Fin 16384) = ⟨(j 0).val, hb⟩ := Fin.ext (by
    show ((j 0).val * 4096 + (j 1).val) / 4096 = (j 0).val; omega)
  have et : rowT (⟨(j 0).val * 4096 + (j 1).val, hr⟩ : Fin 16384) = ⟨(j 1).val, ht⟩ := Fin.ext (by
    show ((j 0).val * 4096 + (j 1).val) % 4096 = (j 1).val; omega)
  show out x md w bias mw mb (rowB ⟨_, hr⟩) (rowT ⟨_, hr⟩) ⟨(j 2).val, ho⟩ = _
  rw [eb, et]
  rfl

end Cert.ModLinear

end
-- ==== Proof.Reference.lean ====
/-
  The reference's result is the layer's function G.

  Read one operation at a time, the reference's last stage at token (b, t) and output feature o is: the product over the
  input feature of (x · s) against row o of the weight, times the reciprocal square root of the product of (s · s) against
  row o of the squared weight plus ε, plus the bias at o, where s is the modulation against the modulation weight plus
  the modulation bias — with every contraction a plain sum on the extended reals. Each index map the stages compose
  (a contraction's left and right index, a bias broadcast through [1, 1, 512]) is named by its coordinates; after that
  the two sides are the same expression.
-/
import proofs.«141809_j46935402611220_2_alg».proof.Proof.Gen.ReferenceIdeal.Read
import proofs.«141809_j46935402611220_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's result array is G of the six argument arrays. -/
theorem ref_eq (x0 x1 : FVec Ideal S4x4096x512 .f32) (x2 : FVec Ideal S512x512 .f32) (x3 : FVec Ideal S512 .f32)
    (x4 : FVec Ideal S512x512 .f32) (x5 : FVec Ideal S512 .f32) :
    val_main_v15 (F := Ideal) x0 x1 x2 x3 x4 x5 = Cert.ModLinear.G x0 x1 x2 x3 x4 x5 := by
  funext j
  obtain ⟨b, t, o, rfl⟩ : ∃ (b : Fin 4) (t : Fin 4096) (o : Fin 512), j = ix3 b t o := ⟨j 0, j 1, j 2, eq_ix3 j⟩
  have e5l : ∀ k : Fin 512, lidx_main_v5 (ix3 b t o) k = ix3 b t k := fun k => funext fun a => Fin.ext (by
    match a with | ⟨0, _⟩ => rfl | ⟨1, _⟩ => rfl | ⟨2, _⟩ => rfl)
  have e5r : ∀ k : Fin 512, ridx_main_v5 (ix3 b t o) k = ix2 o k := fun k => funext fun a => Fin.ext (by
    match a with | ⟨0, _⟩ => rfl | ⟨1, _⟩ => rfl)
  have e8l : ∀ k : Fin 512, lidx_main_v8 (ix3 b t o) k = ix3 b t k := fun k => funext fun a => Fin.ext (by
    match a with | ⟨0, _⟩ => rfl | ⟨1, _⟩ => rfl | ⟨2, _⟩ => rfl)
  have e8r : ∀ k : Fin 512, ridx_main_v8 (ix3 b t o) k = ix2 o k := fun k => funext fun a => Fin.ext (by
    match a with | ⟨0, _⟩ => rfl | ⟨1, _⟩ => rfl)
  have e0l : ∀ i k : Fin 512, lidx_main_v0 (ix3 b t i) k = ix3 b t k := fun i k => funext fun a => Fin.ext (by
    match a with | ⟨0, _⟩ => rfl | ⟨1, _⟩ => rfl | ⟨2, _⟩ => rfl)
  have e0r : ∀ i k : Fin 512, ridx_main_v0 (ix3 b t i) k = ix2 i k := fun i k => funext fun a => Fin.ext (by
    match a with | ⟨0, _⟩ => rfl | ⟨1, _⟩ => rfl)
  have eb : ∀ i : Fin 512, idx_main_v1 (idx_main_v2 (ix3 b t i)) = ix1 i := fun i => funext fun a => Fin.ext (by
    match a with | ⟨0, _⟩ => rfl)
  have ebias : idx_main_v13 (idx_main_v14 (ix3 b t o)) = ix1 o := funext fun a => Fin.ext (by
    match a with | ⟨0, _⟩ => rfl)
  rw [val_main_v15_apply, val_main_v12_apply, val_main_v5_apply, val_main_v11_apply, val_main_v10_apply,
    val_main_v8_apply, val_main_v9_apply, val_main_cst_apply, val_main_v14_apply, val_main_v13_apply, ebias]
  simp only [e5l, e5r, e8l, e8r, val_main_v4_apply, val_main_v6_apply, val_main_v7_apply, val_main_v3_apply,
    val_main_v0_apply, val_main_v2_apply, val_main_v1_apply, e0l, e0r, eb]
  rfl

end Cert.ReferenceIdeal.RefValue

end
-- ==== Proof.Entry.lean ====
/-
  What the region finds in each window's array, read at an index.

  Before the region, the token arrays x and modulation are re-laid from [4, 4096, 512] to [16384, 512] (row r is token
  (r / 4096, r % 4096)), the two bias vectors from [512] to [1, 512], and the three matrices change float format — the
  identity on the extended reals — the squared weight being the weight times itself entry by entry.
-/
import proofs.«141809_j46935402611220_2_alg».proof.Proof.Gen.KernelIdeal.Frame
import proofs.«141809_j46935402611220_2_alg».proof.Proof.Spec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.ValueIdx
open Idealize.ShloMosaic.StableHlo
open Cert.ModLinear (rowB rowT flatten_apply)

variable (m : (ℓ : Loc nD τ sig) → Buf (Elt Ideal) ℓ)

/-- The six argument arrays of core c, as arrays of extended reals: x, modulation, weight, bias, mod_w, mod_b. -/
abbrev argX (c : Dev nD) : FVec Ideal S4x4096x512 .f32 := m ((c.tc : Thread nD τ).loc main_arg0)
abbrev argMd (c : Dev nD) : FVec Ideal S4x4096x512 .f32 := m ((c.tc : Thread nD τ).loc main_arg1)
abbrev argW (c : Dev nD) : FVec Ideal S512x512 .f32 := m ((c.tc : Thread nD τ).loc main_arg2)
abbrev argBias (c : Dev nD) : FVec Ideal S512 .f32 := m ((c.tc : Thread nD τ).loc main_arg3)
abbrev argMw (c : Dev nD) : FVec Ideal S512x512 .f32 := m ((c.tc : Thread nD τ).loc main_arg4)
abbrev argMb (c : Dev nD) : FVec Ideal S512 .f32 := m ((c.tc : Thread nD τ).loc main_arg5)

/-- A [512] vector re-laid as [1, 512], read at column q. -/
theorem row_apply {α : Type} (a : S512.Idx → α) (q : Fin 512) :
    shapeCast S1x512 a shapeCasts_S512_S1x512 (ix2 (0 : Fin 1) q) = a (ix1 q) :=
  shapeCast_apply a shapeCasts_S512_S1x512 (ix2 (0 : Fin 1) q) (ix1 q) (by
    rw [Shape.rowMajor_val_one, Shape.rowMajor_val_two]
    show q.val = 0 * 512 + q.val
    omega)

/-- Window 0's array: x over flattened tokens. -/
theorem x_apply (c : Dev nD) (r : Fin 16384) (i : Fin 512) :
    (V m c main_v0 : S16384x512.Idx → EReal) (ix2 r i) = (argX m c) (ix3 (rowB r) (rowT r) i) := by
  have e : (V m c main_v0 : S16384x512.Idx → EReal)
      = shapeCast S16384x512 (argX m c) shapeCasts_S4x4096x512_S16384x512 := by
    show StableHlo.after hostOps0 (fun b => m (c, b)) (Proc.devRef .tc main_v0) = _
    after_results <;> rfl
  rw [e]
  exact flatten_apply _ _ r i

/-- Window 1's array: the modulation over flattened tokens. -/
theorem md_apply (c : Dev nD) (r : Fin 16384) (k : Fin 512) :
    (V m c main_v1 : S16384x512.Idx → EReal) (ix2 r k) = (argMd m c) (ix3 (rowB r) (rowT r) k) := by
  have e : (V m c main_v1 : S16384x512.Idx → EReal)
      = shapeCast S16384x512 (argMd m c) shapeCasts_S4x4096x512_S16384x512 := by
    show StableHlo.after hostOps0 (fun b => m (c, b)) (Proc.devRef .tc main_v1) = _
    after_results <;> rfl
  rw [e]
  exact flatten_apply _ _ r k

/-- Window 2's array: the bias as a row. -/
theorem bias_apply (c : Dev nD) (q : Fin 512) :
    (V m c main_v6 : S1x512.Idx → EReal) (ix2 (0 : Fin 1) q) = (argBias m c) (ix1 q) := by
  have e : (V m c main_v6 : S1x512.Idx → EReal) = shapeCast S1x512 (argBias m c) shapeCasts_S512_S1x512 := by
    show StableHlo.after hostOps0 (fun b => m (c, b)) (Proc.devRef .tc main_v6) = _
    after_results <;> rfl
  rw [e]
  exact row_apply _ q

/-- Window 3's array: the modulation bias as a row. -/
theorem mb_apply (c : Dev nD) (i : Fin 512) :
    (V m c main_v7 : S1x512.Idx → EReal) (ix2 (0 : Fin 1) i) = (argMb m c) (ix1 i) := by
  have e : (V m c main_v7 : S1x512.Idx → EReal) = shapeCast S1x512 (argMb m c) shapeCasts_S512_S1x512 := by
    show StableHlo.after hostOps0 (fun b => m (c, b)) (Proc.devRef .tc main_v7) = _
    after_results <;> rfl
  rw [e]
  exact row_apply _ i

/-- Window 4's array: the weight. -/
theorem w_apply (c : Dev nD) (j : S512x512.Idx) :
    (V m c main_v2 : S512x512.Idx → EReal) j = (argW m c) j := by
  have e : (V m c main_v2 : S512x512.Idx → EReal)
      = (truncf (F := Ideal) .bf16 ((argW m c) : FVec Ideal S512x512 .f32) bitsLt_bf16_f32 : FVec Ideal S512x512 .bf16) := by
    show StableHlo.after hostOps0 (fun b => m (c, b)) (Proc.devRef .tc main_v2) = _
    after_results <;> rfl
  rw [e]
  rfl

/-- Window 5's array: the weight squared entry by entry. -/
theorem wsq_apply (c : Dev nD) (j : S512x512.Idx) :
    (V m c main_v4 : S512x512.Idx → EReal) j = (argW m c) j * (argW m c) j := by
  have e : (V m c main_v4 : S512x512.Idx → EReal)
      = (truncf (F := Ideal) .bf16 (mulf (F := Ideal) ((argW m c) : FVec Ideal S512x512 .f32) ((argW m c) : FVec Ideal S512x512 .f32)) bitsLt_bf16_f32 : FVec Ideal S512x512 .bf16) := by
    show StableHlo.after hostOps0 (fun b => m (c, b)) (Proc.devRef .tc main_v4) = _
    after_results <;> rfl
  rw [e]
  rfl

/-- Window 6's array: the modulation weight. -/
theorem mw_apply (c : Dev nD) (j : S512x512.Idx) :
    (V m c main_v5 : S512x512.Idx → EReal) j = (argMw m c) j := by
  have e : (V m c main_v5 : S512x512.Idx → EReal)
      = (truncf (F := Ideal) .bf16 ((argMw m c) : FVec Ideal S512x512 .f32) bitsLt_bf16_f32 : FVec Ideal S512x512 .bf16) := by
    show StableHlo.after hostOps0 (fun b => m (c, b)) (Proc.devRef .tc main_v5) = _
    after_results <;> rfl
  rw [e]
  rfl

end Cert.KernelIdeal.Entry

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.Body.lean ====
/-
  What one grid point stores, read at an index.

  A point holds a [1024, 512] block of tokens: rows of x and of the modulation, the two bias rows as [1, 512], and the three
  [512, 512] matrices (weight, weight squared entry by entry, modulation weight). Its stored value at row p, column q is the
  layer's formula over that block: the scale of row p is the row of the modulation block against the rows of the modulation
  weight plus the modulation bias; the result is the scaled row of x against row q of the weight, times the reciprocal square
  root of the squared scale against row q of the squared weight plus ε, plus the bias at q. On the extended reals the change of
  float format before each product is the identity and each product into a zero accumulator is a plain sum over the
  contracted feature.
-/
import proofs.«141809_j46935402611220_2_alg».proof.Proof.Gen.KernelIdeal.Skeleton
import proofs.«141809_j46935402611220_2_alg».proof.Proof.LibDotTransposed
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

abbrev D := dot_S1024x512_S512x512_S1024x512_1_1_0_0_n_n

theorem dot_l0 (j : S1024x512.Idx) (c : D.contr.Idx) : (D.lhsIdx j c 0).val = (j 0).val := by
  unfold DotDims.lhsIdx
  rw [dif_neg (show ¬(0 : Fin S1024x512.rank) ∈ D.lhsBatch by decide), dif_pos (show (0 : Fin S1024x512.rank) ∈ D.lhsNonContracting by decide)]
  rfl

theorem dot_r0 (j : S1024x512.Idx) (c : D.contr.Idx) : (D.rhsIdx j c 0).val = (j 1).val := by
  unfold DotDims.rhsIdx
  rw [dif_neg (show ¬(0 : Fin S512x512.rank) ∈ D.rhsBatch by decide), dif_pos (show (0 : Fin S512x512.rank) ∈ D.rhsNonContracting by decide)]
  rfl

/-- Row p of a [1024,512] block against row q of a [512,512] matrix. -/
theorem rowdot (l : FVec Ideal S1024x512 .bf16) (r : FVec Ideal S512x512 .bf16) (p : Fin 1024) (q : Fin 512) :
    matmul D none l r (constant (F := Ideal) S1024x512 .f32 0x00000000#32) (ix2 p q) = ∑ k : Fin 512, l (ix2 p k) * r (ix2 q k) :=
  Cert.LibDotTransposed.matmul_zero_apply D rfl rfl dot_l0 dot_r0 rfl rfl none l r p q

/-- The per-token scale inside one block: row p of the modulation block against row i of the modulation weights,
    plus the modulation bias at i. -/
def blkScale (mdb : FVec Ideal S1024x512 .f32) (modb : FVec Ideal S1x512 .f32) (mw : FVec Ideal S512x512 .bf16)
    (p : Fin 1024) (i : Fin 512) : EReal :=
  (∑ k : Fin 512, mdb (ix2 p k) * mw (ix2 i k)) + modb (ix2 (0 : Fin 1) i)

/-- The value a block stores at row p, column q. -/
def blkOut (xb mdb : FVec Ideal S1024x512 .f32) (bias modb : FVec Ideal S1x512 .f32) (w wsq mw : FVec Ideal S512x512 .bf16)
    (p : Fin 1024) (q : Fin 512) : EReal :=
  (∑ i : Fin 512, (xb (ix2 p i) * blkScale mdb modb mw p i) * w (ix2 q i))
    * Ideal.rsqrt ((∑ i : Fin 512, (blkScale mdb modb mw p i * blkScale mdb modb mw p i) * wsq (ix2 q i))
        + Ideal.ofBits .f32 0x322BCC77#32)
    + bias (ix2 (0 : Fin 1) q)

/-- A [1,512] row broadcast over the 1024 rows of a block reads the row's entry of the column. -/
theorem row_bcast (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- The body's scale term at (p, i). -/
theorem scale_apply (mdb : FVec Ideal S1024x512 .f32) (modb : FVec Ideal S1x512 .f32) (mw : FVec Ideal S512x512 .bf16)
    (p : Fin 1024) (i : Fin 512) :
    addf (matmul D none (truncf .bf16 mdb bitsLt_bf16_f32) mw (constant (F := Ideal) S1024x512 .f32 0x00000000#32))
      (broadcastTo S1024x512 modb broadcasts_S1x512_S1024x512) (ix2 p i) = blkScale mdb modb mw p i := by
  show matmul D none (truncf .bf16 mdb bitsLt_bf16_f32) mw (constant (F := Ideal) S1024x512 .f32 0x00000000#32) (ix2 p i)
      + broadcastTo S1024x512 modb broadcasts_S1x512_S1024x512 (ix2 p i) = _
  rw [rowdot, row_bcast]
  rfl

/-- The stored value's outer operations at (p, q), for any scale array S: the two products against rows of the weight
    matrices as sums over the input feature, the reciprocal square root, the bias row. -/
theorem outer_apply (xb S : FVec Ideal S1024x512 .f32) (bias : FVec Ideal S1x512 .f32) (w wsq : FVec Ideal S512x512 .bf16)
    (p : Fin 1024) (q : Fin 512) :
    addf (mulf (matmul D none (truncf .bf16 (mulf xb S) bitsLt_bf16_f32) w (constant (F := Ideal) S1024x512 .f32 0x00000000#32))
        (rsqrt (addf (matmul D none (truncf .bf16 (mulf S S) bitsLt_bf16_f32) wsq (constant (F := Ideal) S1024x512 .f32 0x00000000#32))
          (broadcast S1024x512 (FloatOps.ofBits (F := Ideal) .f32 0x322BCC77#32)))))
      (broadcastTo S1024x512 bias broadcasts_S1x512_S1024x512) (ix2 p q)
    = (∑ i : Fin 512, (xb (ix2 p i) * S (ix2 p i)) * w (ix2 q i))
        * Ideal.rsqrt ((∑ i : Fin 512, (S (ix2 p i) * S (ix2 p i)) * wsq (ix2 q i)) + Ideal.ofBits .f32 0x322BCC77#32)
      + bias (ix2 (0 : Fin 1) q) := by
  show matmul D none (truncf .bf16 (mulf xb S) bitsLt_bf16_f32) w (constant (F := Ideal) S1024x512 .f32 0x00000000#32) (ix2 p q)
      * Ideal.rsqrt (matmul D none (truncf .bf16 (mulf S S) bitsLt_bf16_f32) wsq (constant (F := Ideal) S1024x512 .f32 0x00000000#32) (ix2 p q)
          + Ideal.ofBits .f32 0x322BCC77#32)
      + broadcastTo S1024x512 bias broadcasts_S1x512_S1024x512 (ix2 p q) = _
  rw [rowdot, rowdot, row_bcast]
  rfl

/-- The body's stored value, read at (p, q): the layer's formula over the block's rows. -/
theorem pay_apply (xb mdb : FVec Ideal S1024x512 .f32) (bias modb : FVec Ideal S1x512 .f32) (w wsq mw : FVec Ideal S512x512 .bf16)
    (p : Fin 1024) (q : Fin 512) :
    k0_pay1 (F := Ideal) xb mdb bias modb w wsq mw (ix2 p q) = blkOut xb mdb bias modb w wsq mw p q := by
  unfold k0_pay1
  simp only [shapeCast_self]
  refine (outer_apply xb _ bias w wsq p q).trans ?_
  unfold blkOut
  simp only [scale_apply]

end Cert.KernelIdeal.Body

end
-- ==== Proof.BlockSpec.lean ====
/-
  A block's stored value is the layer's function at the block's tokens.

  If a point's blocks hold, row by row, the token arrays at flattened token r (row p of the x and modulation blocks), the
  bias vectors as rows, the weight, the weight squared entry by entry and the modulation weight, then what it stores at
  (p, q) is the layer's result for token (r / 4096, r % 4096) and output feature q: the two formulas are the same
  expression once every block entry is replaced by the array entry it holds.
-/
import proofs.«141809_j46935402611220_2_alg».proof.Proof.Body
import proofs.«141809_j46935402611220_2_alg».proof.Proof.Spec

noncomputable section

open scoped BigOperators

namespace Cert.KernelIdeal.Body

open Cert.KernelIdeal Idealize.ShloMosaic Idealize.ShloMosaic.ValueIdx
open Cert.ModLinear (Tok3 Mat Row rowB rowT)

theorem blkOut_eq (x md : FVec Ideal Tok3 .f32) (w : FVec Ideal Mat .f32) (bias : FVec Ideal Row .f32)
    (mw : FVec Ideal Mat .f32) (mb : FVec Ideal Row .f32)
    (xb mdb : FVec Ideal S1024x512 .f32) (biasb modb : FVec Ideal S1x512 .f32) (wb wsqb mwb : FVec Ideal S512x512 .bf16)
    (r : Fin 16384) (p : Fin 1024)
    (hx : ∀ i : Fin 512, xb (ix2 p i) = x (ix3 (rowB r) (rowT r) i))
    (hmd : ∀ k : Fin 512, mdb (ix2 p k) = md (ix3 (rowB r) (rowT r) k))
    (hbias : ∀ q : Fin 512, biasb (ix2 (0 : Fin 1) q) = bias (ix1 q))
    (hmb : ∀ i : Fin 512, modb (ix2 (0 : Fin 1) i) = mb (ix1 i))
    (hw : ∀ q i : Fin 512, wb (ix2 q i) = w (ix2 q i))
    (hwsq : ∀ q i : Fin 512, wsqb (ix2 q i) = w (ix2 q i) * w (ix2 q i))
    (hmw : ∀ i k : Fin 512, mwb (ix2 i k) = mw (ix2 i k)) (q : Fin 512) :
    blkOut xb mdb biasb modb wb wsqb mwb p q = Cert.ModLinear.out x md w bias mw mb (rowB r) (rowT r) q := by
  unfold blkOut blkScale Cert.ModLinear.out Cert.ModLinear.scale
  simp only [hx, hmd, hbias, hmb, hw, hwsq, hmw]

end Cert.KernelIdeal.Body

end
-- ==== Proof.Blocks.lean ====
/-
  From blocks to the array.

  The grid has 16 points; point t holds rows 1024·t … 1024·t + 1023 of the flattened token arrays (and the whole of the two
  bias rows and the three matrices) and writes back the same rows of the result. So each input block entry is an entry of
  an argument array at a named place, what point t writes back is block t of the flat result function, the 16 blocks cover
  the [16384, 512] array (row r lies in block r / 1024), and the array after the region is the flat result function.
-/
import proofs.«141809_j46935402611220_2_alg».proof.Proof.Gen.KernelIdeal.Frame
import proofs.«141809_j46935402611220_2_alg».proof.Proof.Spec
import proofs.«141809_j46935402611220_2_alg».proof.Proof.Body
import proofs.«141809_j46935402611220_2_alg».proof.Proof.BlockSpec
import proofs.«141809_j46935402611220_2_alg».proof.Proof.Entry
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.ModLinear (rowB rowT Gflat)

variable (m : (ℓ : Loc nD τ sig) → Buf (Elt Ideal) ℓ)

theorem hz : (![0, 0] : Fin 2 → Nat) = fun _ => 0 := funext fun a => by fin_cases a <;> rfl

/-- The printed index maps over the 16 points: the token windows and the result window are at block (t, 0), the
    bias rows and the matrices at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The flattened token in row p of point t's blocks. -/
def tokRow (t : Fin cfg0.N) (p : Fin 1024) : Fin 16384 :=
  ⟨t.val * 1024 + p.val, by have h := t.isLt; have hN : cfg0.N = 16 := N_0; have := p.isLt; omega⟩

/-- Row p of point t's x block is x at that token. -/
theorem x_blk (c : Dev nD) (t : Fin cfg0.N) (p : Fin 1024) (i : Fin 512) :
    (iblk m c 0 t : FVec Ideal S1024x512 .f32) (ix2 p i) = Entry.argX m c (ix3 (rowB (tokRow t p)) (rowT (tokRow t p)) i) := by
  obtain ⟨e0, e1, -⟩ := idx_facts t
  unfold iblk
  rw [View.read_apply]
  have he : ((cfg0.win 0).blk t).view.emb (ix2 p i) = ix2 (tokRow t p) i := by
    funext a; apply Fin.ext
    match a with
    | ⟨0, _⟩ => show win0_0.index t (0 : Fin 2) * 1024 + 1 * p.val = t.val * 1024 + p.val; rw [e0]; omega
    | ⟨1, _⟩ => show win0_0.index t (1 : Fin 2) * 512 + 1 * i.val = i.val; rw [e1]; omega
  show (V m c main_v0 : S16384x512.Idx → EReal) (((cfg0.win 0).blk t).view.emb (ix2 p i)) = _
  rw [he]
  exact Entry.x_apply m c (tokRow t p) i

/-- Row p of point t's modulation block is the modulation at that token. -/
theorem md_blk (c : Dev nD) (t : Fin cfg0.N) (p : Fin 1024) (k : Fin 512) :
    (iblk m c 1 t : FVec Ideal S1024x512 .f32) (ix2 p k) = Entry.argMd m c (ix3 (rowB (tokRow t p)) (rowT (tokRow t p)) k) := by
  obtain ⟨-, -, e0, e1, -⟩ := idx_facts t
  unfold iblk
  rw [View.read_apply]
  have he : ((cfg0.win 1).blk t).view.emb (ix2 p k) = ix2 (tokRow t p) k := by
    funext a; apply Fin.ext
    match a with
    | ⟨0, _⟩ => show win0_1.index t (0 : Fin 2) * 1024 + 1 * p.val = t.val * 1024 + p.val; rw [e0]; omega
    | ⟨1, _⟩ => show win0_1.index t (1 : Fin 2) * 512 + 1 * k.val = k.val; rw [e1]; omega
  show (V m c main_v1 : S16384x512.Idx → EReal) (((cfg0.win 1).blk t).view.emb (ix2 p k)) = _
  rw [he]
  exact Entry.md_apply m c (tokRow t p) k

/-- The bias block is the bias. -/
theorem bias_blk (c : Dev nD) (t : Fin cfg0.N) (q : Fin 512) :
    (iblk m c 2 t : FVec Ideal S1x512 .f32) (ix2 (0 : Fin 1) q) = Entry.argBias m c (ix1 q) := by
  obtain ⟨-, -, -, -, e0, e1, -⟩ := idx_facts t
  unfold iblk
  rw [View.read_apply]
  have he : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [e0]
    | ⟨1, _⟩ => show win0_2.index t (1 : Fin 2) * 512 + 1 * q.val = q.val; rw [e1]; omega
  show (V m c main_v6 : S1x512.Idx → EReal) (((cfg0.win 2).blk t).view.emb (ix2 (0 : Fin 1) q)) = _
  rw [he]
  exact Entry.bias_apply m c q

/-- The modulation bias block is the modulation bias. -/
theorem mb_blk (c : Dev nD) (t : Fin cfg0.N) (i : Fin 512) :
    (iblk m c 3 t : FVec Ideal S1x512 .f32) (ix2 (0 : Fin 1) i) = Entry.argMb m c (ix1 i) := by
  obtain ⟨-, -, -, -, -, -, e0, e1, -⟩ := idx_facts t
  unfold iblk
  rw [View.read_apply]
  have he : ((cfg0.win 3).blk t).view.emb (ix2 (0 : Fin 1) i) = ix2 (0 : Fin 1) i := by
    funext a; apply Fin.ext
    match a with
    | ⟨0, _⟩ => show win0_3.index t (0 : Fin 2) * 1 + 1 * 0 = 0; rw [e0]
    | ⟨1, _⟩ => show win0_3.index t (1 : Fin 2) * 512 + 1 * i.val = i.val; rw [e1]; omega
  show (V m c main_v7 : S1x512.Idx → EReal) (((cfg0.win 3).blk t).view.emb (ix2 (0 : Fin 1) i)) = _
  rw [he]
  exact Entry.mb_apply m c i

/-- The weight block is the weight. -/
theorem w_blk (c : Dev nD) (t : Fin cfg0.N) (q i : Fin 512) :
    (iblk m c 4 t : FVec Ideal S512x512 .bf16) (ix2 q i) = Entry.argW m c (ix2 q i) := by
  obtain ⟨-, -, -, -, -, -, -, -, e0, e1, -⟩ := idx_facts t
  unfold iblk
  rw [View.read_apply]
  have he : ((cfg0.win 4).blk t).view.emb (ix2 q i) = ix2 q i := by
    funext a; apply Fin.ext
    match a with
    | ⟨0, _⟩ => show win0_4.index t (0 : Fin 2) * 512 + 1 * q.val = q.val; rw [e0]; omega
    | ⟨1, _⟩ => show win0_4.index t (1 : Fin 2) * 512 + 1 * i.val = i.val; rw [e1]; omega
  show (V m c main_v2 : S512x512.Idx → EReal) (((cfg0.win 4).blk t).view.emb (ix2 q i)) = _
  rw [he]
  exact Entry.w_apply m c (ix2 q i)

/-- The squared-weight block is the weight times itself. -/
theorem wsq_blk (c : Dev nD) (t : Fin cfg0.N) (q i : Fin 512) :
    (iblk m c 5 t : FVec Ideal S512x512 .bf16) (ix2 q i) = Entry.argW m c (ix2 q i) * Entry.argW m c (ix2 q i) := by
  obtain ⟨-, -, -, -, -, -, -, -, -, -, e0, e1, -⟩ := idx_facts t
  unfold iblk
  rw [View.read_apply]
  have he : ((cfg0.win 5).blk t).view.emb (ix2 q i) = ix2 q i := by
    funext a; apply Fin.ext
    match a with
    | ⟨0, _⟩ => show win0_5.index t (0 : Fin 2) * 512 + 1 * q.val = q.val; rw [e0]; omega
    | ⟨1, _⟩ => show win0_5.index t (1 : Fin 2) * 512 + 1 * i.val = i.val; rw [e1]; omega
  show (V m c main_v4 : S512x512.Idx → EReal) (((cfg0.win 5).blk t).view.emb (ix2 q i)) = _
  rw [he]
  exact Entry.wsq_apply m c (ix2 q i)

/-- The modulation-weight block is the modulation weight. -/
theorem mw_blk (c : Dev nD) (t : Fin cfg0.N) (i k : Fin 512) :
    (iblk m c 6 t : FVec Ideal S512x512 .bf16) (ix2 i k) = Entry.argMw m c (ix2 i k) := by
  obtain ⟨-, -, -, -, -, -, -, -, -, -, -, -, e0, e1, -⟩ := idx_facts t
  unfold iblk
  rw [View.read_apply]
  have he : ((cfg0.win 6).blk t).view.emb (ix2 i k) = ix2 i k := by
    funext a; apply Fin.ext
    match a with
    | ⟨0, _⟩ => show win0_6.index t (0 : Fin 2) * 512 + 1 * i.val = i.val; rw [e0]; omega
    | ⟨1, _⟩ => show win0_6.index t (1 : Fin 2) * 512 + 1 * k.val = k.val; rw [e1]; omega
  show (V m c main_v5 : S512x512.Idx → EReal) (((cfg0.win 6).blk t).view.emb (ix2 i k)) = _
  rw [he]
  exact Entry.mw_apply m c (ix2 i k)

/-- What point t writes back is block t of the flat result function of the argument arrays. -/
theorem flushed_eq (c : Dev nD) (t : Fin cfg0.N) :
    (dats m 0 c).flushed 7 t = ((cfg0.win 7).blk t).view.read (Elt Ideal) (Gflat (Entry.argX m c) (Entry.argMd m c) (Entry.argW m c) (Entry.argBias m c) (Entry.argMw m c) (Entry.argMb m c)) := by
  show (cfg0.win 7).cut (grid0.coords t) ((dats m 0 c).after 7 t) = _
  rw [after0_7]
  unfold out0_7
  rw [View.canon_unit_zero hz]
  simp only [View.ld_unit_zero (S := S1024x512) hz, View.ld_unit_zero (S := S1x512) hz, View.ld_unit_zero (S := S512x512) hz]
  obtain ⟨-, -, -, -, -, -, -, -, -, -, -, -, -, -, e0, e1⟩ := idx_facts t
  refine funext fun (y : S1024x512.Idx) => ?_
  obtain ⟨p, q, rfl⟩ : ∃ (p : Fin 1024) (q : Fin 512), y = ix2 p q := ⟨y 0, y 1, eq_ix2 y⟩
  have he : ((cfg0.win 7).blk t).view.emb (ix2 p q) = ix2 (tokRow t p) q := by
    funext a; apply Fin.ext
    match a with
    | ⟨0, _⟩ => show win0_7.index t (0 : Fin 2) * 1024 + 1 * p.val = t.val * 1024 + p.val; rw [e0]; omega
    | ⟨1, _⟩ => show win0_7.index t (1 : Fin 2) * 512 + 1 * q.val = q.val; rw [e1]; omega
  show k0_pay1 (iblk m c 0 t) (iblk m c 1 t) (iblk m c 2 t) (iblk m c 3 t) (iblk m c 4 t) (iblk m c 5 t) (iblk m c 6 t) (ix2 p q)
      = Gflat (Entry.argX m c) (Entry.argMd m c) (Entry.argW m c) (Entry.argBias m c) (Entry.argMw m c) (Entry.argMb m c) (((cfg0.win 7).blk t).view.emb (ix2 p q))
  rw [he]
  refine (Body.pay_apply (iblk m c 0 t) (iblk m c 1 t) (iblk m c 2 t) (iblk m c 3 t) (iblk m c 4 t) (iblk m c 5 t) (iblk m c 6 t) p q).trans ?_
  exact Body.blkOut_eq (Entry.argX m c) (Entry.argMd m c) (Entry.argW m c) (Entry.argBias m c) (Entry.argMw m c) (Entry.argMb m c) (iblk m c 0 t) (iblk m c 1 t) (iblk m c 2 t) (iblk m c 3 t) (iblk m c 4 t) (iblk m c 5 t) (iblk m c 6 t)
    (tokRow t p) p (x_blk m c t p) (md_blk m c t p) (bias_blk m c t) (mb_blk m c t) (w_blk m c t) (wsq_blk m c t) (mw_blk m c t) q

/-- An index of the result array is in point t's block iff each coordinate is in the block's range on its axis. -/
theorem mem_blk (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v8).slice (win0_7.rect t)).set ↔ _
  rw [View.set_slice_whole, Rect.mem_set_unit]
  exact Iff.rfl

/-- Row r of the result array lies in the block of point r / 1024. -/
theorem cover (i : S16384x512.Idx) : ∃ t : Fin cfg0.N, (cfg0.win 7).flush t = true ∧ i ∈ ((cfg0.win 7).blk t).view.set := by
  have hN : cfg0.N = 16 := N_0
  have h0 : (i 0).val < 16384 := (i 0).isLt
  have h1 : (i 1).val < 512 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; rw [e0, ht]; omega
  | ⟨1, _⟩ => show win0_7.index t (1 : Fin 2) * 512 ≤ (i 1).val ∧ (i 1).val < win0_7.index t (1 : Fin 2) * 512 + 512; rw [e1]; omega

/-- The result window's array after the region is the flat result function of the argument arrays. -/
theorem final (c : Dev nD) : (dats m 0 c).arrAt 7 cfg0.N = Gflat (Entry.argX m c) (Entry.argMd m c) (Entry.argW m c) (Entry.argBias m c) (Entry.argMw m c) (Entry.argMb m c) :=
  (dats m 0 c).arrAt_eq_of_cover 7 (Gflat (Entry.argX m c) (Entry.argMd m c) (Entry.argW m c) (Entry.argBias m c) (Entry.argMw m c) (Entry.argMb m c)) (fun t _ => flushed_eq m c t) cover

end Cert.KernelIdeal.Blocks

end
-- ==== Proof.KernelRun.lean ====
/-
  The kernel program's result.

  After the region the result window's array holds the flat result function; the one line after the region re-lays it
  from [16384, 512] to [4, 4096, 512], which makes it the layer's function G of the six argument arrays. Every weakly fair
  execution of the program ends with its result there and its arguments as launched.
-/
import proofs.«141809_j46935402611220_2_alg».proof.Proof.Gen.KernelIdeal.Frame
import proofs.«141809_j46935402611220_2_alg».proof.Proof.Spec
import proofs.«141809_j46935402611220_2_alg».proof.Proof.Entry
import proofs.«141809_j46935402611220_2_alg».proof.Proof.Blocks
import Idealize.ShloMosaic.Lib.Pipeline.Value
import Idealize.ShloMosaic.Lib.StableHlo.Run

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)
open Idealize.ShloMosaic.StableHlo
open Cert.ModLinear (G Gflat)

variable (m : (ℓ : Loc nD τ sig) → Buf (Elt Ideal) ℓ) (ρ : Dev nD → PrngReg)

/-- The region's result array, as the line after the region finds it: the flat result function. -/
theorem region_result (c : Dev nD) :
    Pipeline.withArrays spec0 c (V0 m c) (fun w => (dats m 0 c).arrAt w cfg0.N) (Proc.devRef .tc main_v8) = Gflat (Entry.argX m c) (Entry.argMd m c) (Entry.argW m c) (Entry.argBias m c) (Entry.argMw m c) (Entry.argMb m c) :=
  (Pipeline.withArrays_arr spec0 launch0.win.arr_inj c _ _ 7).trans (Blocks.final m c)

/-- The program's result: the flat result re-laid as [4, 4096, 512] is G of the argument arrays. -/
theorem result_eq (c : Dev nD) :
    Pipeline.afterTail₀ cfgs (dats m) 0 (V0 m) [hostOps1] c main_v9 = G (Entry.argX m c) (Entry.argMd m c) (Entry.argW m c) (Entry.argBias m c) (Entry.argMw m c) (Entry.argMb m c) := by
  unfold Pipeline.afterTail₀
  show StableHlo.after hostOps1 _ (Proc.devRef .tc main_v9) = _
  after_results
  show shapeCast S4x4096x512 (Pipeline.withArrays spec0 c (V0 m c) (fun w => (dats m 0 c).arrAt w cfg0.N) (Proc.devRef .tc main_v8))
      shapeCasts_S16384x512_S4x4096x512 = _
  rw [region_result m c]
  exact Cert.ModLinear.unflatten_Gflat _ _ _ _ _ _ _

/-- Every weakly fair execution of the program terminates with its result at G of the argument arrays and the arguments
    unchanged. -/
theorem run : θ_run defs (onTc (τ := τ) (main (F := Ideal))) ⟨m, fun _ => 0, ρ⟩ fun r => ∀ c : Dev nD,
      r.2.mem ((c.tc : Thread nD τ).loc main_v9) = G (Entry.argX m c) (Entry.argMd m c) (Entry.argW m c) (Entry.argBias m c) (Entry.argMw m c) (Entry.argMb m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  A modulated linear layer computed block by block against its whole-array form.

  Both programs compute, for a token (b, t) and an output feature o,
      out(b,t,o) = (Σ_i (x(b,t,i) · s(b,t,i)) · weight(o,i)) · rsqrt( Σ_i s(b,t,i)² · weight(o,i)² + ε ) + bias(o),
      s(b,t,i)   = Σ_k modulation(b,t,k) · mod_w(i,k) + mod_b(i),
  with the same ε. One flattens the 4 · 4096 tokens, cuts them into 16 blocks of 1024 rows, changes float format before
  each of its three products and re-lays the result; the other contracts the [4, 4096, 512] arrays whole. On the extended
  reals a change of float format is the identity, a product into a zero accumulator is the plain sum over the contracted
  feature, the two reciprocal square roots are one function, and flattening tokens row-major and cutting rows into blocks
  only renames indices: the two results are the same function G of the six argument arrays, entry by entry, and no
  law that needs finiteness is used. The programs' frames are the generated ones; no operation was rewritten on the way to
  the idealized kernel, so that claim is trivial.
-/
import proofs.«141809_j46935402611220_2_alg».proof.Defs
import proofs.«141809_j46935402611220_2_alg».proof.Proof.Gen.Kernel
import proofs.«141809_j46935402611220_2_alg».proof.Proof.Gen.Kernel.Skeleton
import proofs.«141809_j46935402611220_2_alg».proof.Proof.Gen.Kernel.Launch
import proofs.«141809_j46935402611220_2_alg».proof.Proof.Gen.Kernel.Points
import proofs.«141809_j46935402611220_2_alg».proof.Proof.Gen.Kernel.Frame
import proofs.«141809_j46935402611220_2_alg».proof.Proof.Gen.KernelIdeal
import proofs.«141809_j46935402611220_2_alg».proof.Proof.Gen.KernelIdeal.Skeleton
import proofs.«141809_j46935402611220_2_alg».proof.Proof.Gen.KernelIdeal.Launch
import proofs.«141809_j46935402611220_2_alg».proof.Proof.Gen.KernelIdeal.Points
import proofs.«141809_j46935402611220_2_alg».proof.Proof.Gen.KernelIdeal.Frame
import proofs.«141809_j46935402611220_2_alg».proof.Proof.Gen.ReferenceIdeal
import proofs.«141809_j46935402611220_2_alg».proof.Proof.Gen.ReferenceIdeal.Run
import proofs.«141809_j46935402611220_2_alg».proof.Proof.Gen.ReferenceIdeal.Read
import proofs.«141809_j46935402611220_2_alg».proof.Proof.Gen.Pre_finite_inputs
import proofs.«141809_j46935402611220_2_alg».proof.Proof.Spec
import proofs.«141809_j46935402611220_2_alg».proof.Proof.Reference
import proofs.«141809_j46935402611220_2_alg».proof.Proof.KernelRun
import Idealize.ShloMosaic.Adequacy
import Idealize.ShloMosaic.Init

noncomputable section

namespace Cert.Proof

open Idealize.ShloMosaic Idealize.SL.Sem Cert.Kernel

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories agreeing on the six arguments both programs end with G of those arguments. -/
theorem algebraic : Cert.algebraic_KernelIdeal_ReferenceIdeal := by
  intro m ρ m' ρ' _ hagree
  refine ⟨fun c => Cert.ModLinear.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v15_eq, Cert.ReferenceIdeal.RefValue.ref_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
